-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 36
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRow.lean ====
/-
  The row function both programs compute.

  For one node (one row of the 100000 × 128 arrays) let `a` be the node's row of the neighbour mean and `xr` its row of
  the features. The layer's linear part is, for each of the 128 output columns `j`,
      lin j = ((∑ k, a k · Wl k j) + b j) + ∑ k, xr k · Wr k j ,
  the sums over the 128 input columns, added in exactly this grouping; the result is the row divided by its Euclidean
  norm, the norm bounded below by a small constant:
      out j = lin j / max (√(∑ j', lin j' · lin j')) ε .
  Everything is read on the extended reals: the quotient is `Ideal.div`, the root is `Ideal.sqrt`, `ε` is the value of
  the single-precision word `0x2B8CBCCC`. No law of arithmetic is used to bring the two programs to this form — both
  compute these operations in this order — so nothing here asks the inputs to be finite.
-/
import Idealize.ShloMosaic.PureOps.Ideal

noncomputable section

open scoped BigOperators

namespace Cert.SageRow

open Idealize.ShloMosaic

/-- The lower bound of the norm: the value of the word `0x2B8CBCCC` (the single-precision number nearest to 10⁻¹²). -/
def eps : EReal := Ideal.ofBits .f32 0x2B8CBCCC#32

/-- The linear part of one row at column `j`: the mean's row through `Wl`, plus the bias, plus the features' row
    through `Wr`. -/
def lin (a xr : Fin 128 → EReal) (Wl Wr : Fin 128 → Fin 128 → EReal) (b : Fin 128 → EReal) (j : Fin 128) : EReal :=
  ((∑ k : Fin 128, a k * Wl k j) + b j) + ∑ k : Fin 128, xr k * Wr k j

/-- The row divided by its Euclidean norm bounded below by `eps`. -/
def out (a xr : Fin 128 → EReal) (Wl Wr : Fin 128 → Fin 128 → EReal) (b : Fin 128 → EReal) (j : Fin 128) : EReal :=
  Ideal.div (lin a xr Wl Wr b j)
    (max (Ideal.sqrt (∑ j' : Fin 128, lin a xr Wl Wr b j' * lin a xr Wl Wr b j')) eps)

end Cert.SageRow

end
-- ==== Proof.RefRow.lean ====
/-
  The reference's result, read at one entry, is the row function.

  The reference computes, over the whole 100000 × 128 arrays, the neighbour mean `m`, then
      y = (m · Wl + b) + x · Wr ,     s = the row sums of y ∘ y ,     result = y / max (√s) ε
  with `b`, `√s` and `ε` spread along the rows. Read at row `r` and column `j`, each of these array operations is the
  scalar operation on the entries at that place: a matrix product's entry is the sum over the 128 inner positions `k`
  of (left entry at `(r, k)`) · (right entry at `(k, j)`); a row sum's entry is its starting value `0` plus the sum over
  the row; a spread array's entry is the entry of the smaller array at the coordinates it keeps. So the entry at
  `(r, j)` depends only on row `r` of `m`, row `r` of `x`, the two weight matrices and the bias, and it is exactly
  `SageRow.out` of those: the same operations, in the same grouping. No law of arithmetic enters, only `0 + t = t` for
  the row sum's starting value. The neighbour mean itself is never opened: it is whatever the reference makes it.
-/
import proofs.«109412_j61409442399048_1_alg».proof.Proof.Gen.ReferenceIdeal.Read
import proofs.«109412_j61409442399048_1_alg».proof.Proof.SageRow
import Idealize.ShloMosaic.Lib.ValueIdx
import Idealize.ShloMosaic.PureOps.Ideal.Laws

noncomputable section

open scoped BigOperators

namespace Cert.ReferenceIdeal.RefRow

open Cert.ReferenceIdeal Idealize.ShloMosaic Idealize.ShloMosaic.ValueIdx

/-! ## Which entries each operation reads -/

/-- The product of the mean with `Wl`, at entry `(r, j)` and inner position `k`, reads the mean at `(r, k)`. -/
theorem meanDot_left (r : Fin 100000) (j k : Fin 128) : Read.lidx_main_v23 (ix2 r j) k = ix2 r k :=
  funext fun a => Fin.ext (by match a with | ⟨0, _⟩ => rfl | ⟨1, _⟩ => rfl)

/-- … and reads `Wl` at `(k, j)`. -/
theorem meanDot_right (r : Fin 100000) (j k : Fin 128) : Read.ridx_main_v23 (ix2 r j) k = ix2 k j :=
  funext fun a => Fin.ext (by match a with | ⟨0, _⟩ => rfl | ⟨1, _⟩ => rfl)

/-- The product of the features with `Wr`, at entry `(r, j)` and inner position `k`, reads the features at `(r, k)`. -/
theorem featDot_left (r : Fin 100000) (j k : Fin 128) : Read.lidx_main_v27 (ix2 r j) k = ix2 r k :=
  funext fun a => Fin.ext (by match a with | ⟨0, _⟩ => rfl | ⟨1, _⟩ => rfl)

/-- … and reads `Wr` at `(k, j)`. -/
theorem featDot_right (r : Fin 100000) (j k : Fin 128) : Read.ridx_main_v27 (ix2 r j) k = ix2 k j :=
  funext fun a => Fin.ext (by match a with | ⟨0, _⟩ => rfl | ⟨1, _⟩ => rfl)

/-- The bias, spread first to one row and then down all rows, is read at entry `(r, j)` from its own entry `j`. -/
theorem bias_index (r : Fin 100000) (j : Fin 128) : Read.idx_main_v24 (Read.idx_main_v25 (ix2 r j)) = ix1 j :=
  funext fun a => Fin.ext (by match a with | ⟨0, _⟩ => rfl)

/-- The sum along row `r` reads, at position `k`, the entry `(r, k)`. -/
theorem rowSum_index (r : Fin 100000) (k : Fin 128) : Read.idx_main_v30 (ix1 r) k = ix2 r k :=
  funext fun a => Fin.ext (by match a with | ⟨0, _⟩ => rfl | ⟨1, _⟩ => rfl)

/-- The column of row norms, spread along the rows, is read at entry `(r, j)` from the row sum's entry `r`. -/
theorem norm_index (r : Fin 100000) (j : Fin 128) : Read.idx_main_v31 (Read.idx_main_v35 (ix2 r j)) = ix1 r :=
  funext fun a => Fin.ext (by match a with | ⟨0, _⟩ => rfl)

/-! ## The stages at an entry -/

section

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-- The linear stage `(m · Wl + b) + x · Wr` at entry `(r, j)` is `SageRow.lin` of row `r` of the mean, row `r` of the
    features, the two weight matrices and the bias, at column `j`: each matrix product's entry is its sum over the
    inner position, the bias's entry is `b j`, and the two additions are grouped as in `lin`. -/
theorem ref_lin_apply (r : Fin 100000) (j : Fin 128) :
    Read.val_main_v28 (F := Ideal) x0 x1 x2 x3 x4 (ix2 r j)
      = Cert.SageRow.lin (fun k => Read.val_main_v22 (F := Ideal) x0 x1 (ix2 r k)) (fun k => x0 (ix2 r k))
          (fun k c => x2 (ix2 k c)) (fun k c => x4 (ix2 k c)) (fun c => x3 (ix1 c)) j := by
  rw [Read.val_main_v28_apply, Read.val_main_v26_apply, Read.val_main_v23_apply, Read.val_main_v25_apply,
    Read.val_main_v24_apply, Read.val_main_v27_apply]
  simp only [meanDot_left, meanDot_right, featDot_left, featDot_right, bias_index]
  rfl

/-- The sum of squares along row `r`: the starting value is `0`, so the row sum is the sum over the 128 columns `j'`
    of `lin j' · lin j'`. -/
theorem ref_sumSq_apply (r : Fin 100000) :
    Read.val_main_v30 (F := Ideal) x0 x1 x2 x3 x4 (ix1 r)
      = ∑ j' : Fin 128,
          Cert.SageRow.lin (fun k => Read.val_main_v22 (F := Ideal) x0 x1 (ix2 r k)) (fun k => x0 (ix2 r k))
              (fun k c => x2 (ix2 k c)) (fun k c => x4 (ix2 k c)) (fun c => x3 (ix1 c)) j'
            * Cert.SageRow.lin (fun k => Read.val_main_v22 (F := Ideal) x0 x1 (ix2 r k)) (fun k => x0 (ix2 r k))
              (fun k c => x2 (ix2 k c)) (fun k c => x4 (ix2 k c)) (fun c => x3 (ix1 c)) j' := by
  rw [Read.val_main_v30_apply, Read.val_main_cst_4_apply]
  show Ideal.ofBits .f32 0x00000000#32 + _ = _
  rw [Ideal.ofBits_zero_f32, zero_add]
  refine Finset.sum_congr rfl fun k _ => ?_
  rw [rowSum_index, Read.val_main_v29_apply, ref_lin_apply]
  rfl

/-- The divisor at entry `(r, j)` does not depend on `j`: it is the larger of the root of row `r`'s sum of squares
    and the constant `ε`. -/
theorem ref_norm_apply (r : Fin 100000) (j : Fin 128) :
    Read.val_main_v35 (F := Ideal) x0 x1 x2 x3 x4 (ix2 r j)
      = max (Ideal.sqrt (∑ j' : Fin 128,
          Cert.SageRow.lin (fun k => Read.val_main_v22 (F := Ideal) x0 x1 (ix2 r k)) (fun k => x0 (ix2 r k))
              (fun k c => x2 (ix2 k c)) (fun k c => x4 (ix2 k c)) (fun c => x3 (ix1 c)) j'
            * Cert.SageRow.lin (fun k => Read.val_main_v22 (F := Ideal) x0 x1 (ix2 r k)) (fun k => x0 (ix2 r k))
              (fun k c => x2 (ix2 k c)) (fun k c => x4 (ix2 k c)) (fun c => x3 (ix1 c)) j'))
          Cert.SageRow.eps := by
  rw [Read.val_main_v35_apply, Read.val_main_v34_apply, Read.val_main_v32_apply, Read.val_main_v31_apply, norm_index,
    ref_sumSq_apply, Read.val_main_v33_apply, Read.val_main_cst_5_apply, Ideal.hostUnary_sqrt_def, Ideal.maximumf_def,
    Ideal.ofBits_def, Cert.SageRow.eps]

/-- The reference's result at entry `(r, j)` is the row function of row `r` of the neighbour mean, row `r` of the
    features, the weights and the bias, at column `j`: the linear stage's entry divided by the bounded row norm. -/
theorem ref_apply (r : Fin 100000) (j : Fin 128) :
    Read.val_main_v36 (F := Ideal) x0 x1 x2 x3 x4 (ix2 r j)
      = Cert.SageRow.out (fun k => Read.val_main_v22 (F := Ideal) x0 x1 (ix2 r k)) (fun k => x0 (ix2 r k))
          (fun k c => x2 (ix2 k c)) (fun k c => x4 (ix2 k c)) (fun c => x3 (ix1 c)) j := by
  rw [Read.val_main_v36_apply, ref_lin_apply, ref_norm_apply]
  rfl

end

end Cert.ReferenceIdeal.RefRow

end
-- ==== Proof.BlockIdx.lean ====
/-
  The result as one array-wide function, and where each window's block sits.

  The grid has 50 points; point `t` reads rows 2000 t … 2000 t + 1999 of the neighbour mean and of the features, the
  two 128 × 128 matrices and the bias row whole, and writes rows 2000 t … 2000 t + 1999 of the result. So an element at
  row `p`, column `k` of a row block at point `t` is the array's element at row `2000 t + p`, column `k`, and an element
  of a matrix's or of the bias row's block is the array's element at the same place. These are facts about the windows'
  index maps only, so they are proved for ARBITRARY arrays in the windows' places.

  `result` is the array whose row `r` is the row function of row `r` of the mean and of the features.
-/
import proofs.«109412_j61409442399048_1_alg».proof.Proof.Gen.KernelIdeal.Value
import proofs.«109412_j61409442399048_1_alg».proof.Proof.SageRow
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

/-! ## The result array as one function of the arrays the region reads -/

/-- Row `r`, column `j` of the result: the row function of row `r` of the mean and of the features. -/
def resultAt (mean x : S100000x128.Idx → EReal) (Wl Wr : S128x128.Idx → EReal) (b : S128.Idx → EReal)
    (r : Fin 100000) (j : Fin 128) : EReal :=
  Cert.SageRow.out (fun k => mean (ix2 r k)) (fun k => x (ix2 r k)) (fun k c => Wl (ix2 k c)) (fun k c => Wr (ix2 k c))
    (fun c => b (ix1 c)) j

/-- The whole 100000 × 128 result. -/
def result (mean x : S100000x128.Idx → EReal) (Wl Wr : S128x128.Idx → EReal) (b : S128.Idx → EReal) :
    S100000x128.Idx → EReal :=
  fun i => resultAt mean x Wl Wr b ⟨(i 0).val, (i 0).isLt⟩ ⟨(i 1).val, (i 1).isLt⟩

theorem result_ix2 (mean x : S100000x128.Idx → EReal) (Wl Wr : S128x128.Idx → EReal) (b : S128.Idx → EReal)
    (r : Fin 100000) (j : Fin 128) : result mean x Wl Wr b (ix2 r j) = resultAt mean x Wl Wr b r j := rfl

/-! ## Where each window's block sits -/

/-- The grid has 50 points. -/
theorem point_lt (t : Fin cfg0.N) : t.val < 50 := lt_of_lt_of_eq t.isLt N_0

/-- The printed index maps, decided over the 50 points: the mean's, the features' and the result's block at point `t`
    is block `t` of the rows and the only block of the columns; the two matrices and the bias row are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `2000 t + p` of the array. -/
def rowOf (t : Fin cfg0.N) (p : Fin 2000) : Fin 100000 :=
  ⟨2000 * t.val + p.val, by have := point_lt t; have := p.isLt; omega⟩

/-- Any array read through the first window's block at point `t`: row `p`, column `k` of the block is row
    `2000 t + p`, column `k` of the array. -/
theorem read_rows0 (A : S100000x128.Idx → EReal) (t : Fin cfg0.N) (p : Fin 2000) (k : Fin 128) :
    ((cfg0.win 0).blk t).view.read (Elt Ideal) A (ix2 p k) = A (ix2 (rowOf t p) k) := by
  show A (((cfg0.win 0).blk t).view.emb (ix2 p k)) = _
  refine congrArg A (funext fun a => Fin.ext ?_)
  obtain ⟨e0, e1, -⟩ := idx_facts t
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The second window's block likewise. -/
theorem read_rows1 (A : S100000x128.Idx → EReal) (t : Fin cfg0.N) (p : Fin 2000) (k : Fin 128) :
    ((cfg0.win 1).blk t).view.read (Elt Ideal) A (ix2 p k) = A (ix2 (rowOf t p) k) := by
  show A (((cfg0.win 1).blk t).view.emb (ix2 p k)) = _
  refine congrArg A (funext fun a => Fin.ext ?_)
  obtain ⟨-, -, e0, e1, -⟩ := idx_facts t
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The third window's block is its whole 128 × 128 array. -/
theorem read_whole2 (A : S128x128.Idx → EReal) (t : Fin cfg0.N) (k j : Fin 128) :
    ((cfg0.win 2).blk t).view.read (Elt Ideal) A (ix2 k j) = A (ix2 k j) := by
  show A (((cfg0.win 2).blk t).view.emb (ix2 k j)) = _
  refine congrArg A (funext fun a => Fin.ext ?_)
  obtain ⟨-, -, -, -, e0, e1, -⟩ := idx_facts t
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The fifth window's block is its whole 128 × 128 array. -/
theorem read_whole4 (A : S128x128.Idx → EReal) (t : Fin cfg0.N) (k j : Fin 128) :
    ((cfg0.win 4).blk t).view.read (Elt Ideal) A (ix2 k j) = A (ix2 k j) := by
  show A (((cfg0.win 4).blk t).view.emb (ix2 k j)) = _
  refine congrArg A (funext fun a => Fin.ext ?_)
  obtain ⟨-, -, -, -, -, -, -, -, e0, e1, -⟩ := idx_facts t
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- The fourth window's block is its whole 1 × 128 array. -/
theorem read_whole3 (A : S1x128.Idx → EReal) (t : Fin cfg0.N) (j : Fin 128) :
    ((cfg0.win 3).blk t).view.read (Elt Ideal) A (ix2 (0 : Fin 1) j) = A (ix2 (0 : Fin 1) j) := by
  show A (((cfg0.win 3).blk t).view.emb (ix2 (0 : Fin 1) j)) = _
  refine congrArg A (funext fun a => Fin.ext ?_)
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 128 + 1 * j.val = j.val; rw [e1]; omega

/-- Row `p`, column `q` of the result's block at point `t` is row `2000 t + p`, column `q` of the result array. -/
theorem emb_out (t : Fin cfg0.N) (p : Fin 2000) (q : Fin 128) :
    ((cfg0.win 5).blk t).view.emb (ix2 p q) = (ix2 (rowOf t p) q : S100000x128.Idx) := by
  refine funext fun a => Fin.ext ?_
  obtain ⟨-, -, -, -, -, -, -, -, -, -, e0, e1⟩ := idx_facts t
  match a with
  | ⟨0, _⟩ => show win0_5.index t (0 : Fin 2) * 2000 + 1 * p.val = 2000 * t.val + p.val; rw [e0]; omega
  | ⟨1, _⟩ => show win0_5.index t (1 : Fin 2) * 128 + 1 * q.val = q.val; rw [e1]; omega

end Cert.KernelIdeal.Blocks

end
-- ==== Proof.PayRow.lean ====
/-
  The value the kernel body stores, read at one element, is the row function.

  The body's stored block is a function of five blocks it has read: `v0`, 2000 rows of the neighbour mean; `v3`, the
  same 2000 rows of the features; `v5 = W_l` and `v7 = W_r`, both 128 × 128; `v10`, the bias as one row of 128. It forms
      L = ((v0 · W_l) + bias on every row) + (v3 · W_r)            (2000 × 128),
  squares `L` elementwise, sums each row, takes the root, bounds it below by the constant `ε`, and divides every
  element of a row of `L` by that row's bounded root. On the extended reals every step is exact and the changes of
  format are the identity, so the element at row `p`, column `q` is
      out q = lin q / max (√(∑ j, lin j · lin j)) ε ,   lin j = ((∑ k, v0 p k · W_l k j) + b j) + ∑ k, v3 p k · W_r k j ,
  which is `Cert.SageRow.out` of row `p` of the two row blocks, the two matrices and the bias row. No law of arithmetic
  is used: the block computes exactly these operations in exactly this grouping. The work is to read each operation
  that moves data — the two matrix products, the bias spread over the rows, the row sum, the sum turned into a column,
  the column spread along the rows — at one index written by its coordinates.
-/
import proofs.«109412_j61409442399048_1_alg».proof.Proof.Gen.KernelIdeal.Skeleton
import proofs.«109412_j61409442399048_1_alg».proof.Proof.SageRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayRow

open Cert.KernelIdeal Cert.KernelIdeal.Gen Idealize.ShloMosaic Idealize.ShloMosaic.ValueIdx Idealize.SL.Sem

/-! ## The matrix product at an element -/

/-- The dimension numbers of both matrix products: a 2000 × 128 block times a 128 × 128 matrix, contracting the
    block's columns against the matrix's rows. -/
abbrev mmDims : DotDims S2000x128 S128x128 S2000x128 := dot_S2000x128_S128x128_S2000x128_1_0_0_1_n_n

/-- At output element `(p, q)` the left operand is read in row `p`, whatever the contraction index … -/
theorem lhsIdx_row (p : Fin 2000) (q : Fin 128) (c : mmDims.contr.Idx) :
    (mmDims.lhsIdx (ix2 p q) c 0).val = p.val := by
  unfold DotDims.lhsIdx
  rw [dif_neg (show ¬(0 : Fin S2000x128.rank) ∈ mmDims.lhsBatch by decide),
    dif_pos (show (0 : Fin S2000x128.rank) ∈ mmDims.lhsNonContracting by decide)]
  rfl

/-- … and in the column the contraction index names. -/
theorem lhsIdx_col (p : Fin 2000) (q : Fin 128) (c : mmDims.contr.Idx) :
    (mmDims.lhsIdx (ix2 p q) c 1).val = (c ⟨0, by decide⟩).val :=
  mmDims.lhsIdx_val_of_single rfl (ix2 p q) c

/-- The right operand is read in the row the contraction index names … -/
theorem rhsIdx_row (p : Fin 2000) (q : Fin 128) (c : mmDims.contr.Idx) :
    (mmDims.rhsIdx (ix2 p q) c 0).val = (c ⟨0, by decide⟩).val :=
  mmDims.rhsIdx_val_of_single rfl (ix2 p q) c

/-- … and in column `q`. -/
theorem rhsIdx_col (p : Fin 2000) (q : Fin 128) (c : mmDims.contr.Idx) :
    (mmDims.rhsIdx (ix2 p q) c 1).val = q.val := by
  unfold DotDims.rhsIdx
  rw [dif_neg (show ¬(1 : Fin S128x128.rank) ∈ mmDims.rhsBatch by decide),
    dif_pos (show (1 : Fin S128x128.rank) ∈ mmDims.rhsNonContracting by decide)]
  rfl

/-- A matrix product accumulated into zero, at element `(p, q)`: the sum over the 128 inner coordinates `k` of the left
    operand at `(p, k)` times the right operand at `(k, q)`. The contraction index set has one axis of extent 128; the
    sum over it is re-indexed through its one coordinate. -/
theorem matmul_apply_eq_sum {φ₁ φ₂ : FTy} (lhs : FVec Ideal S2000x128 φ₁) (rhs : FVec Ideal S128x128 φ₂)
    (p : Fin 2000) (q : Fin 128) :
    matmul mmDims none lhs rhs (constant (F := Ideal) S2000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 mmDims 128 rfl rfl).symm]
  refine Finset.sum_congr rfl fun k _ => ?_
  have hk := ValueIdx.contrEquiv1_symm_val mmDims 128 rfl rfl k
  have el : mmDims.lhsIdx (ix2 p q) ((ValueIdx.contrEquiv1 mmDims 128 rfl rfl).symm k) = ix2 p k :=
    funext fun a => Fin.ext (by
      match a with
      | ⟨0, _⟩ => exact lhsIdx_row _ _ _
      | ⟨1, _⟩ => exact (lhsIdx_col _ _ _).trans hk)
  have er : mmDims.rhsIdx (ix2 p q) ((ValueIdx.contrEquiv1 mmDims 128 rfl rfl).symm k) = ix2 k q :=
    funext fun a => Fin.ext (by
      match a with
      | ⟨0, _⟩ => exact (rhsIdx_row _ _ _).trans hk
      | ⟨1, _⟩ => exact rhsIdx_col _ _ _)
  rw [el, er]

/-! ## The data movements at an element -/

/-- The bias row spread over the 2000 rows: element `(p, q)` is the bias at column `q`. (The cast of the one-row block
    to its own shape is the identity.) -/
theorem biasRows_apply (v10 : Vec Ideal S1x128 .f32) (p : Fin 2000) (q : Fin 128) :
    broadcastTo S2000x128 (shapeCast S1x128 v10 shapeCasts_S1x128_S1x128) broadcasts_S1x128_S2000x128 (ix2 p q)
      = v10 (ix2 (0 : Fin 1) q) :=
  (broadcastTo_1b_ab_apply _ broadcasts_S1x128_S2000x128 p q).trans
    (congrFun (shapeCast_self v10 shapeCasts_S1x128_S1x128) _)

/-- Row index `p` with column coordinate `k` put back is the element index `(p, k)`. -/
theorem lift_row (h : S2000x128.Reduces [1] S2000) (p : Fin 2000) (k : Fin 128) :
    h.lift (ix1 p) k = ix2 p k :=
  funext fun a => Fin.ext (by match a with | ⟨0, _⟩ => rfl | ⟨1, _⟩ => rfl)

/-- The sum over the columns of a 2000 × 128 block, at row `p`: `∑ k, src (p, k)` over the 128 columns. -/
theorem rowSum_apply (src : FVec Ideal S2000x128 .f32) (h : S2000x128.Reduces [1] S2000) (hφ : FKind.Formats .f32)
    (hacc : (0x00000000#32 : BitVec (FTy.bits .f32)) = FKind.add.neutral .f32 hφ) (p : Fin 2000) :
    multiReduction .add [1] S2000 src 0x00000000#32 h hφ hacc (ix1 p) = ∑ k : Fin 128, src (ix2 p k) :=
  (Ideal.multiReduction_add_single src _ h hφ hacc (ix1 p)).trans
    (Finset.sum_congr rfl fun k _ => congrArg src (lift_row h p k))

/-- A vector of 2000 entries laid out as a 2000 × 1 column: element `(p, u)` is entry `p` (both sit at row-major
    position `p`). -/
theorem asColumn_apply {α : Type} (x : S2000.Idx → α) (h : S2000.ShapeCasts S2000x1) (p : Fin 2000) (u : Fin 1) :
    shapeCast S2000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A 2000 × 1 column spread along 128 columns: element `(p, q)` is the column's entry in row `p`. -/
theorem alongRow_apply {α : Type} (x : S2000x1.Idx → α) (h : S2000x1.Broadcasts S2000x128) (p : Fin 2000) (q : Fin 128) :
    broadcastTo S2000x128 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-! ## The linear part as a block, and the stored value as a quotient over it -/

/-- The linear part as a 2000 × 128 block: the mean's block through `W_l`, plus the bias on every row, plus the
    features' block through `W_r`, grouped in this order. -/
def linBlk (v0 v3 : Vec Ideal S2000x128 .f32) (v5 v7 : Vec Ideal S128x128 .f32) (v10 : Vec Ideal S1x128 .f32) :
    FVec Ideal S2000x128 .f32 :=
  addf
    (addf
      (matmul dot_S2000x128_S128x128_S2000x128_1_0_0_1_n_n none
        (truncf .bf16 (shapeCast S2000x128 v0 shapeCasts_S2000x128_S2000x128) bitsLt_bf16_f32)
        (truncf .bf16 v5 bitsLt_bf16_f32) (constant S2000x128 .f32 0x00000000#32))
      (broadcastTo S2000x128 (shapeCast S1x128 v10 shapeCasts_S1x128_S1x128) broadcasts_S1x128_S2000x128))
    (matmul dot_S2000x128_S128x128_S2000x128_1_0_0_1_n_n none
      (truncf .bf16 v3 bitsLt_bf16_f32) (truncf .bf16 v7 bitsLt_bf16_f32) (constant S2000x128 .f32 0x00000000#32))

/-- The stored block is the linear part divided, elementwise, by the bounded root of the row sums of its squares,
    spread back along the rows: the chain of operations regrouped around the linear part, nothing computed. -/
theorem pay_eq_div (v0 v3 : Vec Ideal S2000x128 .f32) (v5 v7 : Vec Ideal S128x128 .f32) (v10 : Vec Ideal S1x128 .f32) :
    Gen.k0_pay1 (F := Ideal) v0 v3 v5 v7 v10
      = divf (linBlk v0 v3 v5 v7 v10)
          (broadcastTo S2000x128
            (maximumf
              (sqrt (shapeCast S2000x1
                (multiReduction .add [1] S2000 (mulf (linBlk v0 v3 v5 v7 v10) (linBlk v0 v3 v5 v7 v10)) 0x00000000#32
                  reduces_S2000x128_S2000 (.inl rfl) rfl) shapeCasts_S2000_S2000x1))
              (broadcast S2000x1 (Scalar.ofBits .f32 0x2B8CBCCC#32)))
            broadcasts_S2000x1_S2000x128) := rfl

/-- The linear block at `(p, q)` is the row function's linear part at column `q`, of row `p` of the two row blocks:
    the two products read as sums, the bias read at its column, the casts and format changes the identity. -/
theorem linBlk_apply (v0 v3 : Vec Ideal S2000x128 .f32) (v5 v7 : Vec Ideal S128x128 .f32) (v10 : Vec Ideal S1x128 .f32)
    (p : Fin 2000) (q : Fin 128) :
    linBlk v0 v3 v5 v7 v10 (ix2 p q)
      = Cert.SageRow.lin (fun k => v0 (ix2 p k)) (fun k => v3 (ix2 p k)) (fun k c => v5 (ix2 k c)) (fun k c => v7 (ix2 k c))
          (fun c => v10 (ix2 (0 : Fin 1) c)) q := by
  unfold linBlk
  rw [shapeCast_self v0]
  exact congrArg₂ (· + ·) (congrArg₂ (· + ·) (matmul_apply_eq_sum _ _ p q) (biasRows_apply v10 p q))
    (matmul_apply_eq_sum _ _ p q)

/-- The divisor at `(p, q)`: the root of the sum over row `p` of the squares of the linear block, bounded below by
    `ε`. It does not depend on `q`. -/
theorem rowNorm_apply (v0 v3 : Vec Ideal S2000x128 .f32) (v5 v7 : Vec Ideal S128x128 .f32) (v10 : Vec Ideal S1x128 .f32)
    (p : Fin 2000) (q : Fin 128) :
    broadcastTo S2000x128
        (maximumf
          (sqrt (shapeCast S2000x1
            (multiReduction .add [1] S2000 (mulf (linBlk v0 v3 v5 v7 v10) (linBlk v0 v3 v5 v7 v10)) 0x00000000#32
              reduces_S2000x128_S2000 (.inl rfl) rfl) shapeCasts_S2000_S2000x1))
          (broadcast S2000x1 (Scalar.ofBits .f32 0x2B8CBCCC#32)))
        broadcasts_S2000x1_S2000x128 (ix2 p q)
      = max (Ideal.sqrt (∑ k : Fin 128, linBlk v0 v3 v5 v7 v10 (ix2 p k) * linBlk v0 v3 v5 v7 v10 (ix2 p k)))
          Cert.SageRow.eps := by
  refine (alongRow_apply _ broadcasts_S2000x1_S2000x128 p q).trans ?_
  refine congrArg (fun t => max (Ideal.sqrt t) Cert.SageRow.eps) ?_
  refine (asColumn_apply _ shapeCasts_S2000_S2000x1 p (0 : Fin 1)).trans ?_
  exact rowSum_apply _ reduces_S2000x128_S2000 _ _ p

/-! ## The stored value at an element -/

/-- THE STORED VALUE AT `(p, q)` IS THE ROW FUNCTION of row `p` of the mean's and the features' blocks, the two
    matrices and the bias row, at column `q`. -/
theorem pay_apply (v0 v3 : Vec Ideal S2000x128 .f32) (v5 v7 : Vec Ideal S128x128 .f32) (v10 : Vec Ideal S1x128 .f32)
    (p : Fin 2000) (q : Fin 128) :
    Gen.k0_pay1 (F := Ideal) v0 v3 v5 v7 v10 (ix2 p q)
      = Cert.SageRow.out (fun k => v0 (ix2 p k)) (fun k => v3 (ix2 p k)) (fun k c => v5 (ix2 k c)) (fun k c => v7 (ix2 k c))
          (fun c => v10 (ix2 (0 : Fin 1) c)) q := by
  rw [pay_eq_div]
  refine (congrArg (Ideal.div (linBlk v0 v3 v5 v7 v10 (ix2 p q))) (rowNorm_apply v0 v3 v5 v7 v10 p q)).trans ?_
  simp only [linBlk_apply]
  rfl

end Cert.KernelIdeal.PayRow

end
-- ==== Proof.BlockValue.lean ====
/-
  What a point computes is its block of the result.

  For ANY arrays in the five windows' places, the body's stored value of the five blocks at point `t` is block `t` of
  `result` of the arrays: the stored value at row `p`, column `q` is the row function of row `p` of the two row blocks;
  those rows are rows `2000 t + p` of the two arrays, the matrices' and the bias row's blocks are the arrays themselves;
  and `result` at row `2000 t + p`, column `q` is by definition the row function of those rows.
-/
import proofs.«109412_j61409442399048_1_alg».proof.Proof.BlockIdx
import proofs.«109412_j61409442399048_1_alg».proof.Proof.PayRow

noncomputable section

namespace Cert.KernelIdeal.Blocks

open Cert.KernelIdeal Cert.KernelIdeal.Gen Idealize.ShloMosaic Idealize.ShloMosaic.TcCoe Idealize.SL.Sem
open Idealize.ShloMosaic.ValueIdx

/-- The row function depends only on the values of its five arguments. -/
theorem out_congr {a a' xr xr' : Fin 128 → EReal} {Wl Wl' Wr Wr' : Fin 128 → Fin 128 → EReal} {b b' : Fin 128 → EReal}
    (h0 : ∀ k, a k = a' k) (h1 : ∀ k, xr k = xr' k) (h2 : ∀ k c, Wl k c = Wl' k c) (h4 : ∀ k c, Wr k c = Wr' k c)
    (h3 : ∀ c, b c = b' c) (q : Fin 128) :
    Cert.SageRow.out a xr Wl Wr b q = Cert.SageRow.out a' xr' Wl' Wr' b' q := by
  obtain rfl : a = a' := funext h0
  obtain rfl : xr = xr' := funext h1
  obtain rfl : Wl = Wl' := funext fun k => funext (h2 k)
  obtain rfl : Wr = Wr' := funext fun k => funext (h4 k)
  obtain rfl : b = b' := funext h3
  rfl

/-- The stored block at point `t` is block `t` of `result` (`A3` a one-row array whose row is `b`). -/
theorem block_eq (A0 A1 : S100000x128.Idx → EReal) (A2 A4 : S128x128.Idx → EReal) (A3 : S1x128.Idx → EReal)
    (b : S128.Idx → EReal) (hb : ∀ j : Fin 128, A3 (ix2 (0 : Fin 1) j) = b (ix1 j)) (t : Fin cfg0.N) :
    (k0_pay1 (F := Ideal) (((cfg0.win 0).blk t).view.read (Elt Ideal) A0) (((cfg0.win 1).blk t).view.read (Elt Ideal) A1)
        (((cfg0.win 2).blk t).view.read (Elt Ideal) A2) (((cfg0.win 4).blk t).view.read (Elt Ideal) A4)
        (((cfg0.win 3).blk t).view.read (Elt Ideal) A3) : S2000x128.Idx → EReal)
      = ((cfg0.win 5).blk t).view.read (Elt Ideal) (result A0 A1 A2 A4 b) := by
  funext y
  obtain ⟨p, q, rfl⟩ : ∃ (p : Fin 2000) (q : Fin 128), y = ix2 p q := ⟨y 0, y 1, eq_ix2 y⟩
  -- the stored value at (p, q) is the row function of row p of the blocks
  refine (PayRow.pay_apply (((cfg0.win 0).blk t).view.read (Elt Ideal) A0) (((cfg0.win 1).blk t).view.read (Elt Ideal) A1)
    (((cfg0.win 2).blk t).view.read (Elt Ideal) A2) (((cfg0.win 4).blk t).view.read (Elt Ideal) A4)
    (((cfg0.win 3).blk t).view.read (Elt Ideal) A3) p q).trans ?_
  -- row p of the row blocks is row 2000 t + p of the arrays; the other blocks are the arrays
  refine (out_congr (a' := fun k => A0 (ix2 (rowOf t p) k)) (xr' := fun k => A1 (ix2 (rowOf t p) k))
    (Wl' := fun k c => A2 (ix2 k c)) (Wr' := fun k c => A4 (ix2 k c)) (b' := fun c => b (ix1 c))
    (fun k => read_rows0 A0 t p k) (fun k => read_rows1 A1 t p k) (fun k c => read_whole2 A2 t k c)
    (fun k c => read_whole4 A4 t k c) (fun c => (read_whole3 A3 t c).trans (hb c)) q).trans ?_
  -- and that is result at row 2000 t + p, column q: the place of (p, q) in the result array
  show _ = result A0 A1 A2 A4 b (((cfg0.win 5).blk t).view.emb (ix2 p q))
  rw [emb_out, result_ix2]
  rfl

end Cert.KernelIdeal.Blocks

end
-- ==== Proof.Entry.lean ====
/-
  What the kernel's region finds in the two arrays that host operations write before it.

  The neighbour mean. Before the region, the program gathers the features' rows along the edges' sources, adds them
  into the edges' targets, counts the edges per target the same way, and divides the sums by the counts bounded below
  by one. The reference program begins with the very same operations on the same two arguments, so the array the
  first window reads is the reference's own mean stage, as ONE function of the features and the edge list: the gather
  and the scatter-adds are never opened.

  The bias. The fourth window reads the bias re-laid as one row of 128 columns: its entry at column `j` of its only
  row is the bias at `j`.
-/
import proofs.«109412_j61409442399048_1_alg».proof.Proof.Gen.KernelIdeal.Frame
import proofs.«109412_j61409442399048_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The array the first window reads is the reference's mean stage of the features and the edge list. -/
theorem mean_entry (c : Dev nD) :
    (V m c main_v22 : S100000x128.Idx → EReal)
      = Cert.ReferenceIdeal.Read.val_main_v22 (F := Ideal) (m ((c : Thread nD τ).loc main_arg0)) (m ((c : Thread nD τ).loc main_arg1)) := by
  dsimp only [V, hostOps0]
  after_results_simp <;> rfl

/-- The array the fourth window reads is the bias as one row. -/
theorem bias_entry (c : Dev nD) :
    (V m c main_v23 : S1x128.Idx → EReal) = shapeCast S1x128 (m ((c : Thread nD τ).loc main_arg3)) Facts₀.shapeCasts_S128_S1x128 := by
  dsimp only [V, hostOps0]
  after_results
  rfl

/-- Its entry at column `j` is the bias at `j`. -/
theorem bias_entry_apply (c : Dev nD) (j : Fin 128) :
    (V m c main_v23 : S1x128.Idx → EReal) (ix2 (0 : Fin 1) j) = m ((c : Thread nD τ).loc main_arg3) (ix1 j) := by
  rw [bias_entry]
  exact shapeCast_a_1a_apply _ _ (0 : Fin 1) j

end Cert.KernelIdeal.Entry

end
-- ==== Proof.Whole.lean ====
/-
  The kernel's result array after the run.

  Each of the 50 grid points writes back its block of `result` of the arrays the region finds (the block is the body's
  stored value of the five windows' blocks, and that is block `t` of `result` whatever the arrays are). Row `r` of the
  result array lies in the block of point `r / 2000`, so the 50 blocks cover the array and after the run the array is
  `result` of what the region finds. What it finds: the features and the two matrices as launched (no host operation
  writes them), the bias through its one-row re-laying, and in the first window the neighbour mean that the host
  operations before the region compute — the reference's own mean stage of the features and the edge list.
-/
import proofs.«109412_j61409442399048_1_alg».proof.Proof.Gen.KernelIdeal.Value
import proofs.«109412_j61409442399048_1_alg».proof.Proof.BlockIdx
import proofs.«109412_j61409442399048_1_alg».proof.Proof.BlockValue
import proofs.«109412_j61409442399048_1_alg».proof.Proof.Entry
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- `result` of the arrays as the region finds them. -/
def found (c : Dev nD) : S100000x128.Idx → EReal :=
  Blocks.result (V m c (Pipeline.arrRef spec0 0)) (V m c (Pipeline.arrRef spec0 1)) (V m c (Pipeline.arrRef spec0 2))
    (V m c (Pipeline.arrRef spec0 4)) (m ((c : Thread nD τ).loc main_arg3))

theorem hz : (![0, 0] : Fin 2 → Nat) = fun _ => 0 := funext fun a => by fin_cases a <;> rfl

/-- Point `t` writes back block `t` of `found`. -/
theorem flushed_eq (c : Dev nD) (t : Fin cfg0.N) :
    (dats m 0 c).flushed 5 t = ((cfg0.win 5).blk t).view.read (Elt Ideal) (found m c) := by
  rw [Value.flushed5]
  unfold out0_5
  rw [View.canon_unit_zero hz]
  simp only [View.ld_unit_zero (S := S2000x128) hz, View.ld_unit_zero (S := S128x128) hz, View.ld_unit_zero (S := S1x128) hz]
  unfold iblk found
  have hb : ∀ j : Fin 128, (V m c (Pipeline.arrRef spec0 3) : S1x128.Idx → EReal) (ix2 (0 : Fin 1) j)
      = m ((c : Thread nD τ).loc main_arg3) (ix1 j) := fun j => Entry.bias_entry_apply m c j
  generalize V m c (Pipeline.arrRef spec0 0) = A0
  generalize V m c (Pipeline.arrRef spec0 1) = A1
  generalize V m c (Pipeline.arrRef spec0 2) = A2
  generalize V m c (Pipeline.arrRef spec0 4) = A4
  generalize V m c (Pipeline.arrRef spec0 3) = A3 at hb ⊢
  exact Blocks.block_eq A0 A1 A2 A4 A3 (m ((c : Thread nD τ).loc main_arg3)) hb t

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Row `r` lies in the block of point `r / 2000`: the 50 blocks cover the array. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 2000 < 50 := by omega
  obtain ⟨-, -, -, -, -, -, -, -, -, -, e0, e1⟩ := Blocks.idx_facts ⟨(i 0).val / 2000, lt_of_lt_of_eq ht N_0.symm⟩
  refine ⟨⟨(i 0).val / 2000, lt_of_lt_of_eq ht N_0.symm⟩, flush0_5 _, ?_⟩
  rw [mem_blk]
  intro a
  match a with
  | ⟨0, _⟩ =>
    show win0_5.index ⟨(i 0).val / 2000, lt_of_lt_of_eq ht N_0.symm⟩ (0 : Fin 2) * 2000 ≤ (i 0).val
      ∧ (i 0).val < win0_5.index ⟨(i 0).val / 2000, lt_of_lt_of_eq ht N_0.symm⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, lt_of_lt_of_eq ht N_0.symm⟩ (1 : Fin 2) * 128 ≤ (i 1).val
      ∧ (i 1).val < win0_5.index ⟨(i 0).val / 2000, lt_of_lt_of_eq ht N_0.symm⟩ (1 : Fin 2) * 128 + 128
    rw [e1]
    omega

/-- After the run the result array is `found`. -/
theorem final (c : Dev nD) : (dats m 0 c).arrAt 5 cfg0.N = found m c :=
  (dats m 0 c).arrAt_eq_of_cover 5 (found m c) (fun t _ => flushed_eq m c t) cover

/-- What the region finds, in terms of the arguments: the mean is the reference's mean stage of the features and the
    edge list; the features and the matrices are as launched. -/
theorem found_eq (c : Dev nD) :
    found m c = Blocks.result
      (Cert.ReferenceIdeal.Read.val_main_v22 (F := Ideal) (m ((c : Thread nD τ).loc main_arg0)) (m ((c : Thread nD τ).loc main_arg1)))
      (m ((c : Thread nD τ).loc main_arg0)) (m ((c : Thread nD τ).loc main_arg2)) (m ((c : Thread nD τ).loc main_arg4))
      (m ((c : Thread nD τ).loc main_arg3)) := by
  unfold found
  have h0 : (V m c (Pipeline.arrRef spec0 0) : S100000x128.Idx → EReal)
      = Cert.ReferenceIdeal.Read.val_main_v22 (F := Ideal) (m ((c : Thread nD τ).loc main_arg0)) (m ((c : Thread nD τ).loc main_arg1)) :=
    Entry.mean_entry m c
  have h1 : V m c (Pipeline.arrRef spec0 1) = m ((c : Thread nD τ).loc main_arg0) := V_main_arg0 m c
  have h2 : V m c (Pipeline.arrRef spec0 2) = m ((c : Thread nD τ).loc main_arg2) := V_main_arg2 m c
  have h4 : V m c (Pipeline.arrRef spec0 4) = m ((c : Thread nD τ).loc main_arg4) := V_main_arg4 m c
  rw [h0, h1, h2, h4]

/-- The kernel's run: the result array ends at `result` of the mean stage, the features, the matrices and the bias;
    the arguments are unchanged. -/
theorem run : θ_run defs (onTc (τ := τ) (main (F := Ideal))) ⟨m, fun _ => 0, ρ⟩ fun r => ∀ c : Dev nD,
      r.2.mem ((c : Thread nD τ).loc main_v24) = Blocks.result
        (Cert.ReferenceIdeal.Read.val_main_v22 (F := Ideal) (m ((c : Thread nD τ).loc main_arg0)) (m ((c : Thread nD τ).loc main_arg1)))
        (m ((c : Thread nD τ).loc main_arg0)) (m ((c : Thread nD τ).loc main_arg2)) (m ((c : Thread nD τ).loc main_arg4))
        (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq m c)), (h c).2⟩) (Value.run_blocks m ρ)

end Cert.KernelIdeal.Whole

end
-- ==== Proof.lean ====
/-
  The certificate of the graph layer: the kernel against its reference, on the extended reals.

  Both programs first compute the neighbour mean of the features along the edges by the same host operations, and then
      y = (mean · W_l + b) + x · W_r ,      result = y / max (‖y‖₂ per row, ε) .
  The reference does the second step on the whole 100000 × 128 arrays; the kernel does it on 50 blocks of 2000 rows,
  with its two matrix products' operands shortened to a narrower format on the way in, which on the extended reals is
  the identity. A row of the result depends only on the same row of the mean and of the features (Proof/SageRow.lean,
  the row function), so:
    · the reference's result at row `r`, column `j` is the row function of row `r` (Proof/RefRow.lean);
    · the kernel body's stored value at row `p`, column `q` of a block is the row function of row `p` of the blocks
      (Proof/PayRow.lean), that is of row `2000 t + p` of the arrays at grid point `t` (Proof/BlockIdx.lean,
      Proof/BlockValue.lean), and the 50 blocks tile the array (Proof/Whole.lean);
    · the array the kernel's first window reads is the reference's mean stage of the same arguments (Proof/Entry.lean).
  Hence both result arrays are ONE function, `Blocks.result`, of the mean stage, the features, the two matrices and the
  bias. No law of arithmetic is needed — the operations and their grouping coincide — so the precondition (finite
  inputs) is never opened. The three frames are the generated ones; the reference's is its generated run with the
  result dropped. The idealization rewrote nothing, so `preserves` is `True`.
-/
import proofs.«109412_j61409442399048_1_alg».proof.Defs
import proofs.«109412_j61409442399048_1_alg».proof.Proof.Gen.Kernel
import proofs.«109412_j61409442399048_1_alg».proof.Proof.Gen.Kernel.Skeleton
import proofs.«109412_j61409442399048_1_alg».proof.Proof.Gen.Kernel.Launch
import proofs.«109412_j61409442399048_1_alg».proof.Proof.Gen.Kernel.Points
import proofs.«109412_j61409442399048_1_alg».proof.Proof.Gen.Kernel.Frame
import proofs.«109412_j61409442399048_1_alg».proof.Proof.Gen.KernelIdeal
import proofs.«109412_j61409442399048_1_alg».proof.Proof.Gen.KernelIdeal.Skeleton
import proofs.«109412_j61409442399048_1_alg».proof.Proof.Gen.KernelIdeal.Launch
import proofs.«109412_j61409442399048_1_alg».proof.Proof.Gen.KernelIdeal.Points
import proofs.«109412_j61409442399048_1_alg».proof.Proof.Gen.KernelIdeal.Frame
import proofs.«109412_j61409442399048_1_alg».proof.Proof.Gen.ReferenceIdeal
import proofs.«109412_j61409442399048_1_alg».proof.Proof.Gen.KernelIdeal.Value
import proofs.«109412_j61409442399048_1_alg».proof.Proof.Gen.ReferenceIdeal.Run
import proofs.«109412_j61409442399048_1_alg».proof.Proof.Gen.ReferenceIdeal.Read
import proofs.«109412_j61409442399048_1_alg».proof.Proof.Gen.Pre_finite_inputs
import proofs.«109412_j61409442399048_1_alg».proof.Proof.RefRow
import proofs.«109412_j61409442399048_1_alg».proof.Proof.Whole
import Idealize.ShloMosaic.Adequacy
import Idealize.ShloMosaic.Init

noncomputable section

namespace Cert.Proof

open Idealize.ShloMosaic Idealize.SL.Sem Idealize.ShloMosaic.ValueIdx

/-- The reference's result stage is `result` of its own mean stage, the features, the matrices and the bias: entry by
    entry both are the row function of the entry's row. -/
theorem ref_result (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal)) :
    Cert.ReferenceIdeal.Read.val_main_v36 (F := Ideal) x0 x1 x2 x3 x4
      = Cert.KernelIdeal.Blocks.result (Cert.ReferenceIdeal.Read.val_main_v22 (F := Ideal) x0 x1) x0 x2 x4 x3 := by
  funext i
  obtain ⟨r, j, rfl⟩ : ∃ (r : Fin 100000) (j : Fin 128), i = ix2 r j := ⟨i 0, i 1, eq_ix2 i⟩
  rw [Cert.ReferenceIdeal.RefRow.ref_apply, Cert.KernelIdeal.Blocks.result_ix2]
  rfl

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `Blocks.result` of the mean
    stage, the features, the matrices and the bias. -/
theorem algebraic : Cert.algebraic_KernelIdeal_ReferenceIdeal := by
  intro m ρ m' ρ' _ hagree
  refine ⟨fun c => Cert.KernelIdeal.Blocks.result
      (Cert.ReferenceIdeal.Read.val_main_v22 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2]
  exact ref_result _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
